-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S2048x1024 : Shape := ⟨2, ![2048, 1024]⟩
abbrev S2048 : Shape := ⟨1, ![2048]⟩
abbrev S1024x2048 : Shape := ⟨2, ![1024, 2048]⟩
abbrev S1x2048 : Shape := ⟨2, ![1, 2048]⟩
abbrev S1x512x1024 : Shape := ⟨3, ![1, 512, 1024]⟩
abbrev S1x2048x1024 : Shape := ⟨3, ![1, 2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S2048x1024, .f32⟩
  | .hbm, ⟨7, _⟩ => ⟨S2048x1024, .bf16⟩
  | .hbm, ⟨8, _⟩ => ⟨S2048, .f32⟩
  | .hbm, ⟨9, _⟩ => ⟨S8192x1024, .bf16⟩
  | .hbm, ⟨10, _⟩ => ⟨S8192x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .f32⟩
  | .local _ .vmem, ⟨13, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x1024_S8192x1024 : S4x2048x1024.ShapeCasts S8192x1024
  concatenates_S1024x1024_S1024x1024_S2048x1024_d0 : Shape.Concatenates [S1024x1024, S1024x1024] S2048x1024 0
  bitsLt_bf16_f32 : FTy.bits .bf16 < FTy.bits .f32
  concatenates_S1024_S1024_S2048_d0 : Shape.Concatenates [S1024, S1024] S2048 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S1024x2048 : S1x2048.Broadcasts S1024x2048
  slices_S1024x2048_o0_0_S1024x1024 : S1024x2048.Slices ![0, 0] S1024x1024
  packedbf16_S1024x1024_S1024x1024_0_0 : (Rect.unit (s := S1024x1024) ![0, 0] S1024x1024.size inb_S1024x1024_S1024x1024_0_0).PackedRows (EltTy.packing .bf16)
  slices_S1024x2048_o0_1024_S1024x1024 : S1024x2048.Slices ![0, 1024] S1024x1024
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S1024x1024_S2048x1024_S1024x2048_1_1_0_0_n_n_wf : DotDims.WF S1024x1024 S2048x1024 S1024x2048 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .f32 = 32 ∨ (Rect.block (s := S4x2048x1024) S1x512x1024.size (cc1_transform_2 i) (hinb1_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-pass softmax attention over two linear projections of one input, stated index by index on the extended reals.

  From an input `x` of shape [4, 2048, 1024], weights `W` of shape [1024, 1024] and a bias `b` of length 1024 the
  projection is `proj x W b (p, r, e) = (∑ d, x (p, r, d) · W (e, d)) + b e` (a product with the transpose of `W`).
  With `Q` and `V` two such projections, the score of query row `r` against key row `k` in batch `p` is
  `∑ e, Q (p, r, e) · V (p, k, e)`; the row maximum is the fold of `max` from `⊥` over the 2048 keys; the weight of key
  `k` is `exp (score − row maximum)`; the denominator is the sum of the weights over the keys.

  The attention output is written in its two orders: `attnK` divides the weighted sum of the rows of `V` by the
  denominator once, `attnR` divides every weight by the denominator before summing. `outK` and `outR` are these two as
  whole-array functions of the five argument arrays (input, two weight matrices, two biases).
-/
import Idealize.ShloMosaic.PureOps.Ideal
import Idealize.ShloMosaic.Lib.ValueIdx

noncomputable section

namespace Cert.Attn

open Idealize.ShloMosaic Idealize.ShloMosaic.ValueIdx

/-- Every entry of an array of extended reals is a real number. -/
def IsReal {s : Shape} (A : s.Idx → EReal) : Prop := ∀ i, ∃ a : ℝ, A i = (a : EReal)

/-- The linear projection `x · Wᵀ + b`, entry (p, r, e). -/
def proj (x : Fin 4 → Fin 2048 → Fin 1024 → EReal) (W : Fin 1024 → Fin 1024 → EReal) (b : Fin 1024 → EReal)
    (p : Fin 4) (r : Fin 2048) (e : Fin 1024) : EReal :=
  (∑ d : Fin 1024, x p r d * W e d) + b e

/-- The score of query row `r` against key row `k` in batch `p`. -/
def score (Q V : Fin 4 → Fin 2048 → Fin 1024 → EReal) (p : Fin 4) (r k : Fin 2048) : EReal :=
  ∑ e : Fin 1024, Q p r e * V p k e

/-- The largest score of query row `r`: the fold of `max` from `⊥` over the keys. -/
def rowMax (Q V : Fin 4 → Fin 2048 → Fin 1024 → EReal) (p : Fin 4) (r : Fin 2048) : EReal :=
  (Finset.univ : Finset (Fin 2048)).fold max ⊥ (fun k => score Q V p r k)

/-- The unnormalized weight of key `k` for query row `r`. -/
def wgt (Q V : Fin 4 → Fin 2048 → Fin 1024 → EReal) (p : Fin 4) (r k : Fin 2048) : EReal :=
  Ideal.exp (score Q V p r k - rowMax Q V p r)

/-- The sum of the weights of query row `r`. -/
def den (Q V : Fin 4 → Fin 2048 → Fin 1024 → EReal) (p : Fin 4) (r : Fin 2048) : EReal :=
  ∑ k : Fin 2048, wgt Q V p r k

/-- Attention, dividing the weighted sum once. -/
def attnK (Q V : Fin 4 → Fin 2048 → Fin 1024 → EReal) (p : Fin 4) (r : Fin 2048) (d : Fin 1024) : EReal :=
  Ideal.div (∑ k : Fin 2048, wgt Q V p r k * V p k d) (den Q V p r)

/-- Attention, dividing every weight before the sum. -/
def attnR (Q V : Fin 4 → Fin 2048 → Fin 1024 → EReal) (p : Fin 4) (r : Fin 2048) (d : Fin 1024) : EReal :=
  ∑ k : Fin 2048, Ideal.div (wgt Q V p r k) (den Q V p r) * V p k d

/-- A rank-3 array by its coordinates, -/
def unc3 (A : (⟨3, ![4, 2048, 1024]⟩ : Shape).Idx → EReal) : Fin 4 → Fin 2048 → Fin 1024 → EReal :=
  fun p r d => A (ix3 p r d)
/-- a matrix by its coordinates, -/
def unc2 (A : (⟨2, ![1024, 1024]⟩ : Shape).Idx → EReal) : Fin 1024 → Fin 1024 → EReal :=
  fun e d => A (ix2 e d)
/-- a vector by its coordinate. -/
def unc1 (A : (⟨1, ![1024]⟩ : Shape).Idx → EReal) : Fin 1024 → EReal :=
  fun e => A (ix1 e)

/-- The projection of the input array by a weight matrix and a bias vector. -/
def projOf (A0 : (⟨3, ![4, 2048, 1024]⟩ : Shape).Idx → EReal) (A1 : (⟨2, ![1024, 1024]⟩ : Shape).Idx → EReal)
    (A2 : (⟨1, ![1024]⟩ : Shape).Idx → EReal) : Fin 4 → Fin 2048 → Fin 1024 → EReal :=
  proj (unc3 A0) (unc2 A1) (unc1 A2)

/-- The whole output array, dividing once. -/
def outK (A0 : (⟨3, ![4, 2048, 1024]⟩ : Shape).Idx → EReal) (A1 : (⟨2, ![1024, 1024]⟩ : Shape).Idx → EReal)
    (A2 : (⟨1, ![1024]⟩ : Shape).Idx → EReal) (A3 : (⟨2, ![1024, 1024]⟩ : Shape).Idx → EReal)
    (A4 : (⟨1, ![1024]⟩ : Shape).Idx → EReal) : (⟨3, ![4, 2048, 1024]⟩ : Shape).Idx → EReal :=
  fun j => attnK (projOf A0 A1 A2) (projOf A0 A3 A4) (j 0) (j 1) (j 2)

/-- The whole output array, dividing every weight. -/
def outR (A0 : (⟨3, ![4, 2048, 1024]⟩ : Shape).Idx → EReal) (A1 : (⟨2, ![1024, 1024]⟩ : Shape).Idx → EReal)
    (A2 : (⟨1, ![1024]⟩ : Shape).Idx → EReal) (A3 : (⟨2, ![1024, 1024]⟩ : Shape).Idx → EReal)
    (A4 : (⟨1, ![1024]⟩ : Shape).Idx → EReal) : (⟨3, ![4, 2048, 1024]⟩ : Shape).Idx → EReal :=
  fun j => attnR (projOf A0 A1 A2) (projOf A0 A3 A4) (j 0) (j 1) (j 2)

theorem outK_ix3 (A0 : (⟨3, ![4, 2048, 1024]⟩ : Shape).Idx → EReal) (A1 : (⟨2, ![1024, 1024]⟩ : Shape).Idx → EReal)
    (A2 : (⟨1, ![1024]⟩ : Shape).Idx → EReal) (A3 : (⟨2, ![1024, 1024]⟩ : Shape).Idx → EReal)
    (A4 : (⟨1, ![1024]⟩ : Shape).Idx → EReal) (p : Fin 4) (r : Fin 2048) (d : Fin 1024) :
    outK A0 A1 A2 A3 A4 (ix3 p r d) = attnK (projOf A0 A1 A2) (projOf A0 A3 A4) p r d := rfl

theorem outR_ix3 (A0 : (⟨3, ![4, 2048, 1024]⟩ : Shape).Idx → EReal) (A1 : (⟨2, ![1024, 1024]⟩ : Shape).Idx → EReal)
    (A2 : (⟨1, ![1024]⟩ : Shape).Idx → EReal) (A3 : (⟨2, ![1024, 1024]⟩ : Shape).Idx → EReal)
    (A4 : (⟨1, ![1024]⟩ : Shape).Idx → EReal) (p : Fin 4) (r : Fin 2048) (d : Fin 1024) :
    outR A0 A1 A2 A3 A4 (ix3 p r d) = attnR (projOf A0 A1 A2) (projOf A0 A3 A4) p r d := rfl

end Cert.Attn

end
-- ==== Proof.AttnLaw.lean ====
/-
  The two orders of the softmax division agree on real-valued data.

  On the extended reals the quotient `(∑ k, w k · v k) / L` and the sum `∑ k, (w k / L) · v k` can differ when an
  infinite value or a zero denominator occurs. When every entry of the five argument arrays is a real number, both
  projections are real, every score is real, the row maximum (over a nonempty set of keys) is real, every weight
  `exp (score − maximum)` is a positive real, and the denominator `L` is a positive real. Both orders then reduce
  to the same identity of real numbers, `(∑ k, w k · v k) · (1 / L) = ∑ k, (w k · (1 / L)) · v k`.
-/
import proofs.«118851_j39676907886799_2_alg».proof.Proof.Spec
import Idealize.ShloMosaic.PureOps.Ideal

noncomputable section

namespace Cert.Attn

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- The fold of `max` from `⊥` over a nonempty finite family of reals is a real. -/
theorem fold_max_coe {ι : Type*} (s : Finset ι) (f : ι → ℝ) (hs : s.Nonempty) :
    ∃ μ : ℝ, s.fold max (⊥ : EReal) (fun k => (f k : EReal)) = (μ : EReal) := by
  classical
  revert hs
  refine Finset.induction_on s ?_ ?_
  · intro hs
    exact absurd hs Finset.not_nonempty_empty
  · intro a t ha ih _
    rw [Finset.fold_insert ha]
    rcases t.eq_empty_or_nonempty with rfl | hne
    · exact ⟨f a, by simp⟩
    · obtain ⟨μ, hμ⟩ := ih hne
      exact ⟨max (f a) μ, by rw [hμ]; exact (EReal.coe_strictMono.monotone.map_max).symm⟩

/-- The core law over any nonempty finite set of keys: with real scores `s` and real values `v`, dividing the
    weighted sum once equals dividing every weight before the sum. -/
theorem softmax_orders {κ : Type*} [Fintype κ] [Nonempty κ] (s v : κ → ℝ) :
    Ideal.div
        (∑ k, Ideal.exp ((s k : EReal) - (Finset.univ : Finset κ).fold max (⊥ : EReal) (fun k => (s k : EReal)))
          * (v k : EReal))
        (∑ k, Ideal.exp ((s k : EReal) - (Finset.univ : Finset κ).fold max (⊥ : EReal) (fun k => (s k : EReal))))
      = ∑ k, Ideal.div
          (Ideal.exp ((s k : EReal) - (Finset.univ : Finset κ).fold max (⊥ : EReal) (fun k => (s k : EReal))))
          (∑ k, Ideal.exp ((s k : EReal) - (Finset.univ : Finset κ).fold max (⊥ : EReal) (fun k => (s k : EReal))))
          * (v k : EReal) := by
  obtain ⟨μ, hμ⟩ := fold_max_coe (Finset.univ : Finset κ) s Finset.univ_nonempty
  rw [hμ]
  have hw : ∀ k, Ideal.exp ((s k : EReal) - (μ : EReal)) = ((Real.exp (s k - μ) : ℝ) : EReal) := by
    intro k
    rw [← EReal.coe_sub, Ideal.exp_coe]
  have hden : (∑ k, Ideal.exp ((s k : EReal) - (μ : EReal))) = ((∑ k, Real.exp (s k - μ) : ℝ) : EReal) := by
    rw [coe_sum]
    exact Finset.sum_congr rfl fun k _ => hw k
  have hL : (∑ k, Real.exp (s k - μ) : ℝ) ≠ 0 :=
    ne_of_gt (Finset.sum_pos (fun k _ => Real.exp_pos _) Finset.univ_nonempty)
  rw [hden, Ideal.div_coe hL]
  have hnum : (∑ k, Ideal.exp ((s k : EReal) - (μ : EReal)) * (v k : EReal))
      = ((∑ k, Real.exp (s k - μ) * v k : ℝ) : EReal) := by
    rw [coe_sum]
    exact Finset.sum_congr rfl fun k _ => by rw [hw k, EReal.coe_mul]
  rw [hnum, ← EReal.coe_mul, Finset.sum_mul, coe_sum]
  refine Finset.sum_congr rfl fun k _ => ?_
  rw [Ideal.div_coe hL, hw k, ← EReal.coe_mul, ← EReal.coe_mul]
  congr 1
  ring

/-- A score of real-valued projections is the real score. -/
theorem score_coe (q v : Fin 4 → Fin 2048 → Fin 1024 → ℝ) (p : Fin 4) (r k : Fin 2048) :
    score (fun p r e => (q p r e : EReal)) (fun p r e => (v p r e : EReal)) p r k
      = ((∑ e, q p r e * v p k e : ℝ) : EReal) := by
  rw [coe_sum]
  exact Finset.sum_congr rfl fun e _ => (EReal.coe_mul _ _).symm

/-- The two orders agree for real-valued query and value projections. -/
theorem attn_core (q v : Fin 4 → Fin 2048 → Fin 1024 → ℝ) (p : Fin 4) (r : Fin 2048) (d : Fin 1024) :
    attnK (fun p r e => (q p r e : EReal)) (fun p r e => (v p r e : EReal)) p r d
      = attnR (fun p r e => (q p r e : EReal)) (fun p r e => (v p r e : EReal)) p r d := by
  unfold attnK attnR den wgt rowMax
  simp only [score_coe]
  exact softmax_orders (fun k => ∑ e, q p r e * v p k e) (fun k => v p k d)

/-- A projection of real-valued arrays is real-valued. -/
theorem projOf_real (A0 : (⟨3, ![4, 2048, 1024]⟩ : Shape).Idx → EReal)
    (A1 : (⟨2, ![1024, 1024]⟩ : Shape).Idx → EReal) (A2 : (⟨1, ![1024]⟩ : Shape).Idx → EReal)
    (h0 : IsReal A0) (h1 : IsReal A1) (h2 : IsReal A2) :
    ∃ q : Fin 4 → Fin 2048 → Fin 1024 → ℝ, projOf A0 A1 A2 = fun p r e => (q p r e : EReal) := by
  have h0' : ∀ i, ∃ a : ℝ, A0 i = (a : EReal) := h0
  have h1' : ∀ i, ∃ a : ℝ, A1 i = (a : EReal) := h1
  have h2' : ∀ i, ∃ a : ℝ, A2 i = (a : EReal) := h2
  choose x hx using h0'
  choose W hW using h1'
  choose b hb using h2'
  refine ⟨fun p r e => (∑ d : Fin 1024, x (ix3 p r d) * W (ix2 e d)) + b (ix1 e), ?_⟩
  funext p r e
  show (∑ d : Fin 1024, A0 (ix3 p r d) * A1 (ix2 e d)) + A2 (ix1 e) = _
  rw [EReal.coe_add, coe_sum, hb]
  congr 1
  exact Finset.sum_congr rfl fun d _ => by rw [hx, hW, EReal.coe_mul]

/-- On real-valued argument arrays the two orders of the softmax division give the same output array. -/
theorem outK_eq_outR (A0 : (⟨3, ![4, 2048, 1024]⟩ : Shape).Idx → EReal) (A1 : (⟨2, ![1024, 1024]⟩ : Shape).Idx → EReal) (A2 : (⟨1, ![1024]⟩ : Shape).Idx → EReal) (A3 : (⟨2, ![1024, 1024]⟩ : Shape).Idx → EReal) (A4 : (⟨1, ![1024]⟩ : Shape).Idx → EReal)
    (h0 : IsReal A0) (h1 : IsReal A1) (h2 : IsReal A2) (h3 : IsReal A3) (h4 : IsReal A4) :
    outK A0 A1 A2 A3 A4 = outR A0 A1 A2 A3 A4 := by
  obtain ⟨q, hq⟩ := projOf_real A0 A1 A2 h0 h1 h2
  obtain ⟨v, hv⟩ := projOf_real A0 A3 A4 h0 h3 h4
  funext j
  obtain ⟨p, r, d, rfl⟩ : ∃ p r d, j = ix3 p r d := ⟨j 0, j 1, j 2, eq_ix3 j⟩
  rw [outK_ix3, outR_ix3, hq, hv]
  exact attn_core q v p r d

end Cert.Attn

end
-- ==== Proof.Finite.lean ====
/-
  From the precondition "every floating-point input is finite" to "every entry of each of the five argument arrays is
  a real number".

  The precondition computes, for each argument array `x`, the conjunction over all indices of `|x i| < +∞`, and joins
  the five conjunctions by `and`; it is stated to be true. On the extended reals `|a|` is `max a (-a)`, which is `⊤`
  at both infinities, so `|a| < ⊤` leaves exactly the real numbers.
-/
import proofs.«118851_j39676907886799_2_alg».proof.Pre_finite_inputs
import proofs.«118851_j39676907886799_2_alg».proof.Proof.Gen.Pre_finite_inputs
import proofs.«118851_j39676907886799_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The bit pattern of the positive infinity of the 32-bit format is the top of the extended reals. -/
theorem ofBits_inf : Ideal.ofBits .f32 0x7F800000#32 = (⊤ : EReal) := by
  simp [Ideal.ofBits, Ideal.ieee]

/-- An extended real whose absolute value `max a (-a)` lies strictly below `⊤` is a real number: at `⊥` and at `⊤`
    the maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The shape of rank zero has one index. -/
instance : Subsingleton Cert.Pre_finite_inputs.S_.Idx := ⟨fun a b => funext fun d => d.elim0⟩

/-- One conjunct of the precondition, read back: if the comparison `|x i| < +∞`, taken at every index of an array `x`
    of any shape and reduced by `and` over all axes, is true, then every entry of `x` is a real number. -/
theorem isReal_of_all {s : Shape} {axes : List (Fin s.rank)} (x : FVec Ideal s .f32)
    (dims : Fin Cert.Pre_finite_inputs.S_.rank → Fin s.rank)
    (hb : Cert.Pre_finite_inputs.S_.BroadcastsInDim s dims)
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s dims hb (constant (F := Ideal) Cert.Pre_finite_inputs.S_ .f32 0x7F800000#32)))
        (constantI Cert.Pre_finite_inputs.S_ 1 1#1) hr hu j = 1#1) :
    Cert.Attn.IsReal (s := s) x := by
  intro i
  have hi := Host.reduce_andi_all _ _ hr hu j e i
  have hc : Ideal.cmp .olt (max (x i) (-(x i))) (Ideal.ofBits .f32 0x7F800000#32) = 1#1 := hi
  rw [ofBits_inf] at hc
  refine real_of_abs_lt_top (x i) ?_
  by_cases hlt : max (x i) (-(x i)) < ⊤
  · exact hlt
  · simp [Ideal.cmp, hlt] at hc

/-- The precondition, read back: the five conjunctions it joins are each true, so every entry of each of the five
    argument arrays is a real number. -/
theorem of_pre [hP : Cert.Pre_finite_inputs.Facts] (x0 : FVec Ideal Cert.Pre_finite_inputs.S4x2048x1024 .f32) (x1 : FVec Ideal Cert.Pre_finite_inputs.S1024x1024 .f32) (x2 : FVec Ideal Cert.Pre_finite_inputs.S1024 .f32) (x3 : FVec Ideal Cert.Pre_finite_inputs.S1024x1024 .f32) (x4 : FVec Ideal Cert.Pre_finite_inputs.S1024 .f32)
    (h : Cert.Pre_finite_inputs.fn (F := Ideal) x0 x1 x2 x3 x4 = (fun _ => 1#1)) :
    Cert.Attn.IsReal x0 ∧ Cert.Attn.IsReal x1 ∧ Cert.Attn.IsReal x2 ∧ Cert.Attn.IsReal x3 ∧ Cert.Attn.IsReal x4 := by
  have h0 := congrFun h ValueIdx.ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨isReal_of_all x0 _ _ _ _ _ h0', isReal_of_all x1 _ _ _ _ _ h1, isReal_of_all x2 _ _ _ _ _ h2,
    isReal_of_all x3 _ _ _ _ _ h3, isReal_of_all x4 _ _ _ _ _ h4⟩

end Cert.Finite

end
-- ==== Proof.RefValue.lean ====
/-
  The idealized reference program, read index by index, computes the specification's attention with every weight
  divided by the denominator before the sum.

  The program forms two linear projections `Q` and `V` of one input, the scores `∑ e, Q (p, r, e) · V (p, k, e)`, the
  row maximum as a fold of `max` from `−∞`, the weights `exp (score − maximum)`, their row sum, the quotients
  weight / sum, and finally `∑ k, quotient (p, r, k) · V (p, k, d)`. Each stage is read at an index built from literal
  coordinates, and each reading is identified with the specification's function of the same name.
-/
import proofs.«118851_j39676907886799_2_alg».proof.Proof.Gen.ReferenceIdeal.Read
import proofs.«118851_j39676907886799_2_alg».proof.Proof.Spec
import Idealize.ShloMosaic.Lib.ValueIdx
import Idealize.ShloMosaic.PureOps.Ideal.Laws
import Idealize.ShloMosaic.PureOps.Reduce

noncomputable section

namespace Cert.RefBridge

open Idealize.ShloMosaic Idealize.ShloMosaic.ValueIdx Cert.ReferenceIdeal Cert.ReferenceIdeal.Gen Cert.ReferenceIdeal.Read

/-! ## The two projections -/

theorem lidx_v0_ix3 (p : Fin 4) (r : Fin 2048) (e d : Fin 1024) : lidx_main_v0 (ix3 p r e) d = ix3 p r d := by
  funext a; match a with | ⟨0, _⟩ => rfl | ⟨1, _⟩ => rfl | ⟨2, _⟩ => rfl
theorem ridx_v0_ix3 (p : Fin 4) (r : Fin 2048) (e d : Fin 1024) : ridx_main_v0 (ix3 p r e) d = ix2 e d := by
  funext a; match a with | ⟨0, _⟩ => rfl | ⟨1, _⟩ => rfl
theorem idx_v1_v2_ix3 (p : Fin 4) (r : Fin 2048) (e : Fin 1024) : idx_main_v1 (idx_main_v2 (ix3 p r e)) = ix1 e := by
  funext a; match a with | ⟨0, _⟩ => rfl

/-- The first projection, entry (p, r, e). -/
theorem v3_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (p : Fin 4) (r : Fin 2048) (e : Fin 1024) :
    val_main_v3 (F := Ideal) x0 x1 x2 (ix3 p r e) = Cert.Attn.projOf x0 x1 x2 p r e := by
  rw [val_main_v3_apply, val_main_v0_apply, val_main_v2_apply, val_main_v1_apply, Ideal.addf_def, idx_v1_v2_ix3]
  unfold Cert.Attn.projOf Cert.Attn.proj Cert.Attn.unc3 Cert.Attn.unc2 Cert.Attn.unc1
  refine congrArg (· + x2 (ix1 e)) (Finset.sum_congr rfl fun d _ => ?_)
  rw [lidx_v0_ix3, ridx_v0_ix3]

theorem lidx_v4_ix3 (p : Fin 4) (r : Fin 2048) (e d : Fin 1024) : lidx_main_v4 (ix3 p r e) d = ix3 p r d := by
  funext a; match a with | ⟨0, _⟩ => rfl | ⟨1, _⟩ => rfl | ⟨2, _⟩ => rfl
theorem ridx_v4_ix3 (p : Fin 4) (r : Fin 2048) (e d : Fin 1024) : ridx_main_v4 (ix3 p r e) d = ix2 e d := by
  funext a; match a with | ⟨0, _⟩ => rfl | ⟨1, _⟩ => rfl
theorem idx_v5_v6_ix3 (p : Fin 4) (r : Fin 2048) (e : Fin 1024) : idx_main_v5 (idx_main_v6 (ix3 p r e)) = ix1 e := by
  funext a; match a with | ⟨0, _⟩ => rfl

/-- The second projection, entry (p, r, e). -/
theorem v7_at (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (p : Fin 4) (r : Fin 2048) (e : Fin 1024) :
    val_main_v7 (F := Ideal) x0 x3 x4 (ix3 p r e) = Cert.Attn.projOf x0 x3 x4 p r e := by
  rw [val_main_v7_apply, val_main_v4_apply, val_main_v6_apply, val_main_v5_apply, Ideal.addf_def, idx_v5_v6_ix3]
  unfold Cert.Attn.projOf Cert.Attn.proj Cert.Attn.unc3 Cert.Attn.unc2 Cert.Attn.unc1
  refine congrArg (· + x4 (ix1 e)) (Finset.sum_congr rfl fun d _ => ?_)
  rw [lidx_v4_ix3, ridx_v4_ix3]

/-! ## The scores -/

theorem lidx_v8_ix3 (p : Fin 4) (r k : Fin 2048) (e : Fin 1024) : lidx_main_v8 (ix3 p r k) e = ix3 p r e := by
  funext a; match a with | ⟨0, _⟩ => rfl | ⟨1, _⟩ => rfl | ⟨2, _⟩ => rfl
theorem ridx_v8_ix3 (p : Fin 4) (r k : Fin 2048) (e : Fin 1024) : ridx_main_v8 (ix3 p r k) e = ix3 p k e := by
  funext a; match a with | ⟨0, _⟩ => rfl | ⟨1, _⟩ => rfl | ⟨2, _⟩ => rfl

/-- The score of query row `r` against key row `k` in batch `p`. -/
theorem v8_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r k : Fin 2048) :
    val_main_v8 (F := Ideal) x0 x1 x2 x3 x4 (ix3 p r k) = Cert.Attn.score (Cert.Attn.projOf x0 x1 x2) (Cert.Attn.projOf x0 x3 x4) p r k := by
  rw [val_main_v8_apply]
  unfold Cert.Attn.score
  refine Finset.sum_congr rfl fun e _ => ?_
  rw [lidx_v8_ix3, ridx_v8_ix3, v3_at, v7_at]

/-! ## The row maximum -/

/-- A reduction by `max` from the pattern of `−∞` over the last axis is, at (p, r), the fold of `max` from `⊥` over that
    axis's coordinates. -/
theorem reduce_max_at (y : (⟨S4x2048x2048, .f32⟩ : BufTy).Contents (Elt Ideal)) (p : Fin 4) (r : Fin 2048) :
    Host.reduce (FloatOps.maximumf (F := Ideal) (φ := .f32)) y (val_main_cst (F := Ideal)) reducesTo_S4x2048x2048_S4x2048_d2 h_S_ (ix2 p r)
      = (Finset.univ : Finset (Fin 2048)).fold max ⊥ (fun k => y (ix3 p r k)) := by
  have hred : S4x2048x2048.Reduces [2] S4x2048 := by decide
  rw [Host.reduce_eq_fold_single (FloatOps.maximumf (F := Ideal) (φ := .f32)) y (val_main_cst (F := Ideal))
    reducesTo_S4x2048x2048_S4x2048_d2 hred h_S_ (ix2 p r)]
  have hinit : (val_main_cst (F := Ideal)) (Shape.Idx.first h_S_) = (⊥ : EReal) := by
    rw [val_main_cst_apply, Ideal.ofBits_def]; simp [Ideal.ofBits, Ideal.ieee]
  have hfun : (y ∘ hred.lift (ix2 p r)) = fun k : Fin 2048 => y (ix3 p r k) := by
    funext k
    exact congrArg y (funext fun a => Fin.ext (by match a with | ⟨0, _⟩ => rfl | ⟨1, _⟩ => rfl | ⟨2, _⟩ => rfl))
  rw [hinit, hfun]
  rfl

/-- The row maximum of the scores. -/
theorem v9_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r : Fin 2048) :
    val_main_v9 (F := Ideal) x0 x1 x2 x3 x4 (ix2 p r) = Cert.Attn.rowMax (Cert.Attn.projOf x0 x1 x2) (Cert.Attn.projOf x0 x3 x4) p r := by
  unfold val_main_v9
  rw [reduce_max_at]
  unfold Cert.Attn.rowMax
  refine congrArg (fun f => (Finset.univ : Finset (Fin 2048)).fold max ⊥ f) (funext fun k => ?_)
  exact v8_at x0 x1 x2 x3 x4 p r k

/-! ## The weights -/

/-- The maximum with `−∞` leaves the row maximum. -/
theorem v11_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r : Fin 2048) :
    val_main_v11 (F := Ideal) x0 x1 x2 x3 x4 (ix2 p r) = Cert.Attn.rowMax (Cert.Attn.projOf x0 x1 x2) (Cert.Attn.projOf x0 x3 x4) p r := by
  rw [val_main_v11_apply, val_main_v10_apply, val_main_cst_0_apply, v9_at, Ideal.maximumf_def, Ideal.ofBits_def]
  have hbot : Ideal.ofBits .f32 0xFF800000#32 = (⊥ : EReal) := by simp [Ideal.ofBits, Ideal.ieee]
  rw [hbot]
  exact max_eq_right bot_le

theorem idx_v12_v13_ix3 (p : Fin 4) (r k : Fin 2048) : idx_main_v12 (idx_main_v13 (ix3 p r k)) = ix2 p r := by
  funext a; match a with | ⟨0, _⟩ => rfl | ⟨1, _⟩ => rfl

/-- The row maximum, broadcast back over the keys. -/
theorem v13_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r k : Fin 2048) :
    val_main_v13 (F := Ideal) x0 x1 x2 x3 x4 (ix3 p r k) = Cert.Attn.rowMax (Cert.Attn.projOf x0 x1 x2) (Cert.Attn.projOf x0 x3 x4) p r := by
  rw [val_main_v13_apply, val_main_v12_apply, idx_v12_v13_ix3, v11_at]

/-- The unnormalized weight of key `k` for query row `r`. -/
theorem v15_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r k : Fin 2048) :
    val_main_v15 (F := Ideal) x0 x1 x2 x3 x4 (ix3 p r k) = Cert.Attn.wgt (Cert.Attn.projOf x0 x1 x2) (Cert.Attn.projOf x0 x3 x4) p r k := by
  rw [val_main_v15_apply, val_main_v14_apply, v8_at, v13_at, Ideal.hostUnary_exp_def, Ideal.subf_def]
  rfl

/-! ## The denominator and the quotients -/

theorem idx_v16_ix2 (p : Fin 4) (r k : Fin 2048) : idx_main_v16 (ix2 p r) k = ix3 p r k := by
  funext a; match a with | ⟨0, _⟩ => rfl | ⟨1, _⟩ => rfl | ⟨2, _⟩ => rfl

/-- The sum of the weights of query row `r`. -/
theorem v16_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r : Fin 2048) :
    val_main_v16 (F := Ideal) x0 x1 x2 x3 x4 (ix2 p r) = Cert.Attn.den (Cert.Attn.projOf x0 x1 x2) (Cert.Attn.projOf x0 x3 x4) p r := by
  rw [val_main_v16_apply, val_main_cst_1_apply, Ideal.ofBits_def, Ideal.ofBits_zero_f32, zero_add]
  unfold Cert.Attn.den
  refine Finset.sum_congr rfl fun k _ => ?_
  rw [idx_v16_ix2, v15_at]

theorem idx_v17_v18_ix3 (p : Fin 4) (r k : Fin 2048) : idx_main_v17 (idx_main_v18 (ix3 p r k)) = ix2 p r := by
  funext a; match a with | ⟨0, _⟩ => rfl | ⟨1, _⟩ => rfl

/-- The denominator, broadcast back over the keys. -/
theorem v18_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r k : Fin 2048) :
    val_main_v18 (F := Ideal) x0 x1 x2 x3 x4 (ix3 p r k) = Cert.Attn.den (Cert.Attn.projOf x0 x1 x2) (Cert.Attn.projOf x0 x3 x4) p r := by
  rw [val_main_v18_apply, val_main_v17_apply, idx_v17_v18_ix3, v16_at]

/-- The weight of key `k` divided by the denominator. -/
theorem v19_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (r k : Fin 2048) :
    val_main_v19 (F := Ideal) x0 x1 x2 x3 x4 (ix3 p r k)
      = Ideal.div (Cert.Attn.wgt (Cert.Attn.projOf x0 x1 x2) (Cert.Attn.projOf x0 x3 x4) p r k) (Cert.Attn.den (Cert.Attn.projOf x0 x1 x2) (Cert.Attn.projOf x0 x3 x4) p r) := by
  rw [val_main_v19_apply, v15_at, v18_at, Ideal.hostDivf_def]

/-! ## The output -/

theorem lidx_v20_ix3 (p : Fin 4) (r : Fin 2048) (d : Fin 1024) (k : Fin 2048) : lidx_main_v20 (ix3 p r d) k = ix3 p r k := by
  funext a; match a with | ⟨0, _⟩ => rfl | ⟨1, _⟩ => rfl | ⟨2, _⟩ => rfl
theorem ridx_v20_ix3 (p : Fin 4) (r : Fin 2048) (d : Fin 1024) (k : Fin 2048) : ridx_main_v20 (ix3 p r d) k = ix3 p k d := by
  funext a; match a with | ⟨0, _⟩ => rfl | ⟨1, _⟩ => rfl | ⟨2, _⟩ => rfl

/-- The reference program's result is the attention that divides every weight before the sum. -/
theorem ref_value (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) :
    Cert.ReferenceIdeal.Read.val_main_v20 (F := Ideal) x0 x1 x2 x3 x4 = Cert.Attn.outR x0 x1 x2 x3 x4 := by
  funext j
  obtain ⟨p, r, d, rfl⟩ : ∃ p r d, j = ix3 p r d := ⟨j 0, j 1, j 2, eq_ix3 j⟩
  rw [Cert.Attn.outR_ix3, val_main_v20_apply]
  unfold Cert.Attn.attnR
  refine Finset.sum_congr rfl fun k _ => ?_
  rw [lidx_v20_ix3, ridx_v20_ix3, v19_at, v7_at]

end Cert.RefBridge

end
-- ==== Proof.KRun.lean ====
/-
  The idealized kernel's run with its result array named.

  The program is two pipelined regions among stretches of host operations. Its buffer contents at the last boundary are
  a fold through the program: the host operations before the first region, the first region's write-backs, the two
  reshapes between the regions, the second region's write-backs. Every weakly fair execution terminates with every
  unscoped buffer at those contents; read at the result buffer, that is the array the second region's output window
  leaves after its last grid point, and read at an argument's buffer it is the launch contents.
-/
import proofs.«118851_j39676907886799_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is what the second region's output window leaves. -/
theorem last_result (c : Dev nD) :
    W4 m ρ c (Proc.devRef .tc main_v7) = (dat1 (V3 m ρ) c).arrAt 2 cfg1.N :=
  W4_arr m ρ c 2

set_option backward.isDefEq.respectTransparency.types false in
/-- Every weakly fair execution of the program terminates without a fault, the result buffer holding the second
    region's final output array and the five arguments as launched. -/
theorem run_named : θ_run defs (onTc (τ := τ) (main (F := F))) ⟨m, fun _ => 0, ρ⟩ (fun r => ∀ c : Dev nD,
      r.2.mem ((c.tc : Thread nD τ).loc main_v7) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (last_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KRun

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.Body0.lean ====
/-
  The first kernel's body, read entry by entry on the extended reals.

  One grid point loads a 1024-row block `x` of the flattened input, the whole stacked weight matrix `w` (2048 rows:
  the first projection's 1024 rows above the second's) and the stacked bias `b` (2048 entries). It forms
  `y (p, n) = (∑ d, x (p, d) · w (n, d)) + b n` for the 2048 columns `n`, stores columns 0 … 1023 as the first output
  block and columns 1024 … 2047 as the second. The changes of float format in between are the identity here.
-/
import proofs.«118851_j39676907886799_2_alg».proof.Proof.Gen.KernelIdeal.Skeleton
import proofs.«118851_j39676907886799_2_alg».proof.Proof.LibTransposedRhsDot
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body0

open Cert.KernelIdeal Cert.KernelIdeal.Gen Idealize.ShloMosaic Idealize.ShloMosaic.ValueIdx

/-- Column `e` of the first half of the 2048 stacked columns. -/
def lo (e : Fin 1024) : Fin 2048 := ⟨e.val, by have := e.isLt; omega⟩
/-- Column `e` of the second half. -/
def hi (e : Fin 1024) : Fin 2048 := ⟨1024 + e.val, by have := e.isLt; omega⟩

/-- The fused product plus bias at row `p`, stacked column `n`. -/
theorem fused_apply (x0 : Vec Ideal S1024x1024 .f32) (x1 : Vec Ideal S2048x1024 .bf16) (x2 : Vec Ideal S2048 .f32)
    (p : Fin 1024) (n : Fin 2048) :
    k0_pay1 (F := Ideal) x0 x1 x2 (ix2 p n) = (∑ d : Fin 1024, x0 (ix2 p d) * x1 (ix2 n d)) + x2 (ix1 n) := by
  unfold k0_pay1
  refine (addf_apply _ _ _).trans ?_
  refine congrArg₂ (fun a b : EReal => a + b) ?_ ?_
  · refine (Cert.LibTransposedRhsDot.matmul_zero_apply (M := 1024) (K := 1024) (N := 2048) none _ _ p n).trans ?_
    refine Finset.sum_congr rfl fun d _ => ?_
    rw [shapeCast_self, shapeCast_self]
    rfl
  · refine (broadcastTo_1b_ab_apply _ _ p n).trans ?_
    refine (shapeCast_a_1a_apply _ _ (0 : Fin 1) n).trans ?_
    rw [shapeCast_self]

/-- The first stored block: columns 0 … 1023 of the fused result. -/
theorem first_apply (x0 : Vec Ideal S1024x1024 .f32) (x1 : Vec Ideal S2048x1024 .bf16) (x2 : Vec Ideal S2048 .f32)
    (p e : Fin 1024) :
    k0_pay2 (F := Ideal) x0 x1 x2 (ix2 p e) = (∑ d : Fin 1024, x0 (ix2 p d) * x1 (ix2 (lo e) d)) + x2 (ix1 (lo e)) := by
  unfold k0_pay2
  refine (truncf_apply (φ := .f32) (ψ := .bf16) _ bitsLt_bf16_f32 (ix2 p e)).trans ?_
  refine (slice2_axis1_apply 0 _ _ p e (lo e) (by show e.val = 0 + e.val; omega)).trans ?_
  exact fused_apply x0 x1 x2 p (lo e)

/-- The second stored block: columns 1024 … 2047 of the fused result. -/
theorem second_apply (x0 : Vec Ideal S1024x1024 .f32) (x1 : Vec Ideal S2048x1024 .bf16) (x2 : Vec Ideal S2048 .f32)
    (p e : Fin 1024) :
    k0_pay3 (F := Ideal) x0 x1 x2 (ix2 p e) = (∑ d : Fin 1024, x0 (ix2 p d) * x1 (ix2 (hi e) d)) + x2 (ix1 (hi e)) := by
  unfold k0_pay3
  refine (truncf_apply (φ := .f32) (ψ := .bf16) _ bitsLt_bf16_f32 (ix2 p e)).trans ?_
  refine (slice2_axis1_apply 1024 _ _ p e (hi e) rfl).trans ?_
  exact fused_apply x0 x1 x2 p (hi e)

end Cert.KernelIdeal.Body0

end
-- ==== Proof.Region0.lean ====
/-
  The first region's two output arrays after its last grid point, as whole-array functions of the arrays the region
  finds on entry.

  The region walks eight grid points down the 8192 rows of the flattened input. At point `t` it reads rows
  `1024 t … 1024 t + 1023` of the input, the whole stacked weight matrix (2048 rows) and the whole stacked bias, forms
  `(∑ d, x (R, d) · w (n, d)) + b n` for every row `R` of the block and every stacked column `n`, and writes columns
  0 … 1023 to block `t` of the first output and columns 1024 … 2047 to block `t` of the second. The eight blocks are
  disjoint and cover all 8192 rows, so after the last point each output array is that expression at every index.
-/
import proofs.«118851_j39676907886799_2_alg».proof.Proof.Gen.KernelIdeal.Frame
import proofs.«118851_j39676907886799_2_alg».proof.Proof.Body0
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Body0 Idealize.ShloMosaic Idealize.ShloMosaic.ValueIdx
  Idealize.ShloMosaic.TcCoe Idealize.SL.Sem
open Idealize.ShloMosaic.Pipeline (Dat)

variable (V : (c : Dev nD) → (b : Ref sig .tc) → Buf (Elt Ideal) ((c : Thread nD τ).loc b))

/-- Row `R` of the flattened input against row `n` of the stacked weight matrix, plus entry `n` of the stacked bias. -/
def gq (c : Dev nD) (R : Fin 8192) (n : Fin 2048) : EReal :=
  HAdd.hAdd (α := EReal) (β := EReal) (γ := EReal)
    (∑ d : Fin 1024, HMul.hMul (α := EReal) (β := EReal) (γ := EReal) (V c main_v0 (ix2 R d)) (V c main_v2 (ix2 n d)))
    (V c main_v3 (ix1 n))

/-- The first output array: the stacked columns 0 … 1023. -/
def G3 (c : Dev nD) : S8192x1024.Idx → EReal := fun i => gq V c (i 0) (lo (i 1))
/-- The second output array: the stacked columns 1024 … 2047. -/
def G4 (c : Dev nD) : S8192x1024.Idx → EReal := fun i => gq V c (i 0) (hi (i 1))

theorem hz2 : (![0, 0] : Fin 2 → Nat) = fun _ => 0 := funext fun a => by fin_cases a <;> rfl
theorem hz1 : (![0] : Fin 1 → Nat) = fun _ => 0 := funext fun a => by fin_cases a; rfl

/-- The index maps of the five windows over the eight grid points: the input block and the two output blocks move
    down the rows with the point, the weight matrix and the bias are whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input block at point `t`: rows `1024 t … 1024 t + 1023` of the flattened input. -/
theorem read0 (c : Dev nD) (t : Fin cfg0.N) (z : S1024x1024.Idx) (i : S8192x1024.Idx)
    (h0 : (i 0).val = t.val * 1024 + (z 0).val) (h1 : (i 1).val = (z 1).val) :
    iblk0 V c 0 t z = V c main_v0 i := by
  show V c main_v0 (((cfg0.win 0).blk t).view.emb z) = V c main_v0 i
  refine congrArg (V c main_v0) ?_
  obtain ⟨e0, e1, -⟩ := idx0 t
  funext a; apply Fin.ext
  match a with
  | ⟨0, _⟩ => show win0_0.index t (0 : Fin 2) * 1024 + 1 * (z 0).val = (i 0).val; omega
  | ⟨1, _⟩ => show win0_0.index t (1 : Fin 2) * 1024 + 1 * (z 1).val = (i 1).val; omega

/-- The weight block at every point is the whole stacked matrix. -/
theorem read1 (c : Dev nD) (t : Fin cfg0.N) (z : S2048x1024.Idx) : iblk0 V c 1 t z = V c main_v2 z := by
  show V c main_v2 (((cfg0.win 1).blk t).view.emb z) = V c main_v2 z
  refine congrArg (V c main_v2) ?_
  obtain ⟨-, -, e2, e3, -⟩ := idx0 t
  funext a; apply Fin.ext
  match a with
  | ⟨0, _⟩ => show win0_1.index t (0 : Fin 2) * 2048 + 1 * (z 0).val = (z 0).val; omega
  | ⟨1, _⟩ => show win0_1.index t (1 : Fin 2) * 1024 + 1 * (z 1).val = (z 1).val; omega

/-- The bias block at every point is the whole stacked bias. -/
theorem read2 (c : Dev nD) (t : Fin cfg0.N) (z : S2048.Idx) : iblk0 V c 2 t z = V c main_v3 z := by
  show V c main_v3 (((cfg0.win 2).blk t).view.emb z) = V c main_v3 z
  refine congrArg (V c main_v3) ?_
  obtain ⟨-, -, -, -, e4, -⟩ := idx0 t
  funext a; apply Fin.ext
  match a with
  | ⟨0, _⟩ => show win0_2.index t (0 : Fin 1) * 2048 + 1 * (z 0).val = (z 0).val; omega

/-- The first stored block at an arbitrary index of the block. -/
theorem first_block (x0 : Vec Ideal S1024x1024 .f32) (x1 : Vec Ideal S2048x1024 .bf16) (x2 : Vec Ideal S2048 .f32)
    (y : S1024x1024.Idx) :
    k0_pay2 (F := Ideal) x0 x1 x2 y
      = (∑ d : Fin 1024, x0 (ix2 (y 0) d) * x1 (ix2 (lo (y 1)) d)) + x2 (ix1 (lo (y 1))) := by
  obtain ⟨p, e, rfl⟩ : ∃ p e, y = ix2 p e := ⟨y 0, y 1, eq_ix2 y⟩
  exact first_apply x0 x1 x2 p e

/-- The second stored block at an arbitrary index of the block. -/
theorem second_block (x0 : Vec Ideal S1024x1024 .f32) (x1 : Vec Ideal S2048x1024 .bf16) (x2 : Vec Ideal S2048 .f32)
    (y : S1024x1024.Idx) :
    k0_pay3 (F := Ideal) x0 x1 x2 y
      = (∑ d : Fin 1024, x0 (ix2 (y 0) d) * x1 (ix2 (hi (y 1)) d)) + x2 (ix1 (hi (y 1))) := by
  obtain ⟨p, e, rfl⟩ : ∃ p e, y = ix2 p e := ⟨y 0, y 1, eq_ix2 y⟩
  exact second_apply x0 x1 x2 p e

/-- What grid point `t` writes back to the first output array is block `t` of `G3`: rows `1024 t … 1024 t + 1023`, all columns. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S2048x1024) hz2,
    View.ld_unit_zero (S := S2048) hz1]
  funext y
  refine (first_block (iblk0 V c 0 t) (iblk0 V c 1 t) (iblk0 V c 2 t) y).trans ?_
  obtain ⟨-, -, -, -, -, e5, e6, e7, e8⟩ := idx0 t
  have hI0 : ((((cfg0.win 3).blk t).view.emb y) 0).val = t.val * 1024 + (y 0).val := by
    show win0_3.index t (0 : Fin 2) * 1024 + 1 * (y 0).val = _
    omega
  have hI1 : (((cfg0.win 3).blk t).view.emb y) 1 = y 1 :=
    Fin.ext (by show win0_3.index t (1 : Fin 2) * 1024 + 1 * (y 1).val = (y 1).val; omega)
  show _ = gq V c ((((cfg0.win 3).blk t).view.emb y) 0) (lo ((((cfg0.win 3).blk t).view.emb y) 1))
  unfold gq
  refine congrArg₂ (fun a b : EReal => a + b)
    (Finset.sum_congr rfl fun d _ => congrArg₂ (fun a b : EReal => a * b) ?_ ?_) ?_
  · exact read0 V c t (ix2 (y 0) d) (ix2 ((((cfg0.win 3).blk t).view.emb y) 0) d) hI0 rfl
  · exact (read1 V c t (ix2 (lo (y 1)) d)).trans
      (congrArg (fun n : Fin 1024 => V c main_v2 (ix2 (lo n) d)) hI1.symm)
  · exact (read2 V c t (ix1 (lo (y 1)))).trans
      (congrArg (fun n : Fin 1024 => V c main_v3 (ix1 (lo n))) hI1.symm)

/-- An index of the first output array lies in point `t`'s block iff each coordinate lies in the block's range. -/
theorem mem_blk3 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4_0).slice (win0_3.rect t)).set ↔ _
  rw [View.set_slice_whole, Rect.mem_set_unit]
  exact Iff.rfl

/-- The eight blocks cover the array: row `r` lies in the block of point `r / 1024`, and every point writes back. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 8 := N_0
  have ht : (i 0).val / 1024 < grid0.N := by omega
  obtain ⟨-, -, -, -, -, e5, e6, e7, e8⟩ := idx0 ⟨(i 0).val / 1024, ht⟩
  refine ⟨⟨(i 0).val / 1024, ht⟩, flush0_3 _, ?_⟩
  rw [mem_blk3]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    have e : win0_3.index ⟨(i 0).val / 1024, ht⟩ (0 : Fin 2) = (i 0).val / 1024 := e5
    omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    omega

/-- The first output array after the last grid point, entry by entry. -/
theorem final3 (c : Dev nD) : (dat0 V c).arrAt 3 cfg0.N = G3 V c :=
  (dat0 V c).arrAt_eq_of_cover 3 (G3 V c) (fun t _ => flushed3_eq V c t) cover3

/-- What grid point `t` writes back to the second output array is block `t` of `G4`: rows `1024 t … 1024 t + 1023`, all columns. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S2048x1024) hz2,
    View.ld_unit_zero (S := S2048) hz1]
  funext y
  refine (second_block (iblk0 V c 0 t) (iblk0 V c 1 t) (iblk0 V c 2 t) y).trans ?_
  obtain ⟨-, -, -, -, -, e5, e6, e7, e8⟩ := idx0 t
  have hI0 : ((((cfg0.win 4).blk t).view.emb y) 0).val = t.val * 1024 + (y 0).val := by
    show win0_4.index t (0 : Fin 2) * 1024 + 1 * (y 0).val = _
    omega
  have hI1 : (((cfg0.win 4).blk t).view.emb y) 1 = y 1 :=
    Fin.ext (by show win0_4.index t (1 : Fin 2) * 1024 + 1 * (y 1).val = (y 1).val; omega)
  show _ = gq V c ((((cfg0.win 4).blk t).view.emb y) 0) (hi ((((cfg0.win 4).blk t).view.emb y) 1))
  unfold gq
  refine congrArg₂ (fun a b : EReal => a + b)
    (Finset.sum_congr rfl fun d _ => congrArg₂ (fun a b : EReal => a * b) ?_ ?_) ?_
  · exact read0 V c t (ix2 (y 0) d) (ix2 ((((cfg0.win 4).blk t).view.emb y) 0) d) hI0 rfl
  · exact (read1 V c t (ix2 (hi (y 1)) d)).trans
      (congrArg (fun n : Fin 1024 => V c main_v2 (ix2 (hi n) d)) hI1.symm)
  · exact (read2 V c t (ix1 (hi (y 1)))).trans
      (congrArg (fun n : Fin 1024 => V c main_v3 (ix1 (hi n))) hI1.symm)

/-- An index of the second output array lies in point `t`'s block iff each coordinate lies in the block's range. -/
theorem mem_blk4 (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v4_1).slice (win0_4.rect t)).set ↔ _
  rw [View.set_slice_whole, Rect.mem_set_unit]
  exact Iff.rfl

/-- The eight blocks cover the array: row `r` lies in the block of point `r / 1024`, and every point writes back. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 8 := N_0
  have ht : (i 0).val / 1024 < grid0.N := by omega
  obtain ⟨-, -, -, -, -, e5, e6, e7, e8⟩ := idx0 ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    have e : win0_4.index ⟨(i 0).val / 1024, ht⟩ (0 : Fin 2) = (i 0).val / 1024 := e7
    omega
  | ⟨1, _⟩ =>
    show win0_4.index ⟨(i 0).val / 1024, ht⟩ (1 : Fin 2) * 1024 ≤ (i 1).val
      ∧ (i 1).val < win0_4.index ⟨(i 0).val / 1024, ht⟩ (1 : Fin 2) * 1024 + 1024
    omega

/-- The second output array after the last grid point, entry by entry. -/
theorem final4 (c : Dev nD) : (dat0 V c).arrAt 4 cfg0.N = G4 V c :=
  (dat0 V c).arrAt_eq_of_cover 4 (G4 V c) (fun t _ => flushed4_eq V c t) cover4

end Cert.KernelIdeal.Region0

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.Body1.lean ====
/-
  The second kernel's body, read entry by entry on the extended reals.

  One grid point loads a 512-row block `q` of the first projection and the 2048 rows `v` of the second projection of
  the same batch. It forms the scores `s (r, k) = ∑ e, q (r, e) · v (k, e)`, the row maxima `m r` (the fold of `max`
  from −∞ over the 2048 keys), the weights `w (r, k) = exp (s (r, k) − m r)`, their row sums `l r`, the weighted sums
  `a (r, d) = ∑ k, w (r, k) · v (k, d)`, and stores `a (r, d) / l r`. The changes of float format in between are the
  identity here. Read at an entry, that is the specification's attention with the division done once, for any two
  projections whose rows agree with the loaded blocks.
-/
import proofs.«118851_j39676907886799_2_alg».proof.Proof.Gen.KernelIdeal.Skeleton
import proofs.«118851_j39676907886799_2_alg».proof.Proof.LibTransposedRhsDot
import proofs.«118851_j39676907886799_2_alg».proof.Proof.LibPlainDot
import proofs.«118851_j39676907886799_2_alg».proof.Proof.LibKeepdims
import proofs.«118851_j39676907886799_2_alg».proof.Proof.LibLaneMax
import proofs.«118851_j39676907886799_2_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body1

open Cert.KernelIdeal Cert.KernelIdeal.Gen Idealize.ShloMosaic Idealize.ShloMosaic.ValueIdx

/-- An exponential at an index is the exponential of the element. -/
theorem exp_apply {s : Shape} {φ : FTy} (a : FVec Ideal s φ) (i : s.Idx) : exp a i = Ideal.exp (a i) := rfl

/-- The score block of a query block against a key block. -/
def scores (x0 : Vec Ideal S1x512x1024 .bf16) (x1 : Vec Ideal S1x2048x1024 .bf16) : FVec Ideal S512x2048 .f32 :=
  matmul dot_S512x1024_S2048x1024_S512x2048_1_1_0_0_n_n none
    (shapeCast S512x1024 x0 shapeCasts_S1x512x1024_S512x1024 : FVec Ideal S512x1024 .bf16)
    (shapeCast S2048x1024 x1 shapeCasts_S1x2048x1024_S2048x1024 : FVec Ideal S2048x1024 .bf16)
    (constant S512x2048 .f32 0x00000000#32)

/-- A score is the product of query row `r` with key row `k`. -/
theorem scores_apply (x0 : Vec Ideal S1x512x1024 .bf16) (x1 : Vec Ideal S1x2048x1024 .bf16) (r : Fin 512) (k : Fin 2048) :
    scores x0 x1 (ix2 r k) = ∑ e : Fin 1024, x0 (ix3 (0 : Fin 1) r e) * x1 (ix3 (0 : Fin 1) k e) := by
  unfold scores
  refine (Cert.LibTransposedRhsDot.matmul_zero_apply (M := 512) (K := 1024) (N := 2048) none _ _ r k).trans ?_
  refine Finset.sum_congr rfl fun e _ => ?_
  rw [shapeCast_1ab_ab_apply, shapeCast_1ab_ab_apply]

/-- The exponentials of a score block shifted by its row maxima. -/
def weights (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl)
    shapeCasts_S512_S512x1) broadcasts_S512x1_S512x2048))

/-- A weight is the exponential of the score less the row's largest score. -/
theorem weights_apply (s : FVec Ideal S512x2048 .f32) (r : Fin 512) (k : Fin 2048) :
    weights s (ix2 r k)
      = Ideal.exp (s (ix2 r k) - (Finset.univ : Finset (Fin 2048)).fold max ⊥ (fun k' => s (ix2 r k'))) := by
  unfold weights
  refine (exp_apply _ _).trans (congrArg Ideal.exp ?_)
  refine (subf_apply _ _ _).trans (congrArg (fun z : EReal => s (ix2 r k) - z) ?_)
  refine (Cert.Keepdims.broadcastTo_a1_ab_apply _ _ r k).trans ?_
  refine (Cert.Keepdims.shapeCast_a_a1_apply _ _ r (0 : Fin 1)).trans ?_
  exact Cert.LibLaneMax.laneMax_apply s _ _ _ r

/-- The stored block is the weighted sum of the key rows divided by the weights' row sum. -/
theorem pay_eq (x0 : Vec Ideal S1x512x1024 .bf16) (x1 : Vec Ideal S1x2048x1024 .bf16) :
    k1_pay1 (F := Ideal) x0 x1
      = shapeCast S1x512x1024 (divf
          (matmul dot_S512x2048_S2048x1024_S512x1024_1_0_0_1_n_n none
            (truncf .bf16 (weights (scores x0 x1)) bitsLt_bf16_f32 : FVec Ideal S512x2048 .bf16)
            (shapeCast S2048x1024 x1 shapeCasts_S1x2048x1024_S2048x1024 : FVec Ideal S2048x1024 .bf16)
            (constant S512x1024 .f32 0x00000000#32))
          (broadcastTo S512x1024 (shapeCast S512x1
            (multiReduction .add [1] S512 (weights (scores x0 x1)) 0x00000000#32 reduces_S512x2048_S512 (.inl rfl) rfl)
            shapeCasts_S512_S512x1) broadcasts_S512x1_S512x1024)) shapeCasts_S512x1024_S1x512x1024 := rfl

/-- The stored block at `(u, r, d)`, over the loaded blocks' entries. -/
theorem pay_apply (x0 : Vec Ideal S1x512x1024 .bf16) (x1 : Vec Ideal S1x2048x1024 .bf16)
    (u : Fin 1) (r : Fin 512) (d : Fin 1024) :
    k1_pay1 (F := Ideal) x0 x1 (ix3 u r d)
      = Ideal.div (∑ k : Fin 2048, weights (scores x0 x1) (ix2 r k) * x1 (ix3 (0 : Fin 1) k d))
          (∑ k : Fin 2048, weights (scores x0 x1) (ix2 r k)) := by
  rw [pay_eq]
  refine (shapeCast_ab_1ab_apply _ _ u r d).trans ?_
  refine (divf_apply _ _ _).trans ?_
  refine congrArg₂ Ideal.div ?_ ?_
  · refine (Cert.LibPlainDot.matmul_zero_apply 512 2048 1024 none _ _ (ix2 r d)).trans ?_
    refine Finset.sum_congr rfl fun k _ => ?_
    refine congrArg₂ (fun a b : EReal => a * b) rfl ?_
    exact shapeCast_1ab_ab_apply _ _ k d
  · refine (Cert.Keepdims.broadcastTo_a1_ab_apply _ _ r d).trans ?_
    refine (Cert.Keepdims.shapeCast_a_a1_apply _ _ r (0 : Fin 1)).trans ?_
    exact Cert.Keepdims.laneSum_apply _ _ _ _ r

/-- The stored block at `(u, r, d)` is the specification's attention (division done once) of any two projections
    `Q`, `V` whose row `(p, r')` of `Q` is row `r` of the query block and whose batch `p` of `V` is the key block. -/
theorem pay_attn (x0 : Vec Ideal S1x512x1024 .bf16) (x1 : Vec Ideal S1x2048x1024 .bf16)
    (Q V : Fin 4 → Fin 2048 → Fin 1024 → EReal) (p : Fin 4) (r' : Fin 2048) (u : Fin 1) (r : Fin 512) (d : Fin 1024)
    (hq : ∀ e : Fin 1024, x0 (ix3 (0 : Fin 1) r e) = Q p r' e)
    (hv : ∀ (k : Fin 2048) (e : Fin 1024), x1 (ix3 (0 : Fin 1) k e) = V p k e) :
    k1_pay1 (F := Ideal) x0 x1 (ix3 u r d) = Cert.Attn.attnK Q V p r' d := by
  have hs : ∀ k : Fin 2048, scores x0 x1 (ix2 r k) = Cert.Attn.score Q V p r' k := fun k => by
    rw [scores_apply]
    unfold Cert.Attn.score
    exact Finset.sum_congr rfl fun e _ => by rw [hq e, hv k e]
  have hw : ∀ k : Fin 2048, weights (scores x0 x1) (ix2 r k) = Cert.Attn.wgt Q V p r' k := fun k => by
    rw [weights_apply]
    unfold Cert.Attn.wgt Cert.Attn.rowMax
    rw [hs k, show (fun k' => scores x0 x1 (ix2 r k')) = fun k' => Cert.Attn.score Q V p r' k' from funext hs]
  rw [pay_apply]
  unfold Cert.Attn.attnK Cert.Attn.den
  refine congrArg₂ Ideal.div (Finset.sum_congr rfl fun k _ => ?_) (Finset.sum_congr rfl fun k _ => hw k)
  rw [hw k, hv k d]

end Cert.KernelIdeal.Body1

end
-- ==== Proof.Region1.lean ====
/-
  The second region's output array after its last grid point, as one function of the region's entry contents.

  The grid has 4 × 4 points; point `t` is batch `t / 4`, query tile `t mod 4`. Its query window is the 512 rows
  `512 · (t mod 4) …` of batch `t / 4` of the first projection, its key window all 2048 rows of that batch of the
  second projection, and its output window the same 512 rows of the result. What the body stores at row `r`, column
  `d` of the block is the attention (division done once) of query row `512 · (t mod 4) + r` of batch `t / 4`, so each
  write-back is a block of one whole-array function; the sixteen blocks tile the array, so the array ends holding it.
-/
import proofs.«118851_j39676907886799_2_alg».proof.Proof.Gen.KernelIdeal.Frame
import proofs.«118851_j39676907886799_2_alg».proof.Proof.Body1
import proofs.«118851_j39676907886799_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The first projection as the region finds it, by coordinates, -/
def Qc (c : Dev nD) : Fin 4 → Fin 2048 → Fin 1024 → EReal := Cert.Attn.unc3 (V c main_v5 : S4x2048x1024.Idx → EReal)
/-- and the second. -/
def Vc (c : Dev nD) : Fin 4 → Fin 2048 → Fin 1024 → EReal := Cert.Attn.unc3 (V c main_v6 : S4x2048x1024.Idx → EReal)

/-- What the output array ends holding: the attention of the two projections, entry by entry. -/
def G (c : Dev nD) : S4x2048x1024.Idx → EReal := fun j => Cert.Attn.attnK (Qc V c) (Vc V c) (j 0) (j 1) (j 2)

theorem hz3 : (![0, 0, 0] : Fin 3 → Nat) = fun _ => 0 := funext fun a => by fin_cases a <;> rfl

/-- The printed index maps, decided over the sixteen grid points. -/
theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- An entry of the query window's block at point `t` is the first projection's entry at batch `t / 4`, row
    `512 · (t mod 4)` plus the row inside the block. -/
theorem read_q (c : Dev nD) (t : Fin cfg1.N) (z : S1x512x1024.Idx) (i : S4x2048x1024.Idx)
    (h0 : (i 0).val = t.val / 4 + (z 0).val) (h1 : (i 1).val = t.val % 4 * 512 + (z 1).val) (h2 : (i 2).val = (z 2).val) :
    iblk1 V c 0 t z = V c main_v5 i := by
  obtain ⟨e0, e1, e2, -, -, -, -, -, -⟩ := idx1 t
  show V c main_v5 (((cfg1.win 0).blk t).view.emb z) = V c main_v5 i
  refine congrArg (V c main_v5) ?_
  funext a
  apply Fin.ext
  match a with
  | ⟨0, _⟩ => show win1_0.index t (0 : Fin 3) * 1 + 1 * (z 0).val = (i 0).val; omega
  | ⟨1, _⟩ => show win1_0.index t (1 : Fin 3) * 512 + 1 * (z 1).val = (i 1).val; omega
  | ⟨2, _⟩ => show win1_0.index t (2 : Fin 3) * 1024 + 1 * (z 2).val = (i 2).val; omega

/-- An entry of the key window's block at point `t` is the second projection's entry at batch `t / 4`, same row. -/
theorem read_v (c : Dev nD) (t : Fin cfg1.N) (z : S1x2048x1024.Idx) (i : S4x2048x1024.Idx)
    (h0 : (i 0).val = t.val / 4 + (z 0).val) (h1 : (i 1).val = (z 1).val) (h2 : (i 2).val = (z 2).val) :
    iblk1 V c 1 t z = V c main_v6 i := by
  obtain ⟨-, -, -, e0, e1, e2, -, -, -⟩ := idx1 t
  show V c main_v6 (((cfg1.win 1).blk t).view.emb z) = V c main_v6 i
  refine congrArg (V c main_v6) ?_
  funext a
  apply Fin.ext
  match a with
  | ⟨0, _⟩ => show win1_1.index t (0 : Fin 3) * 1 + 1 * (z 0).val = (i 0).val; omega
  | ⟨1, _⟩ => show win1_1.index t (1 : Fin 3) * 2048 + 1 * (z 1).val = (i 1).val; omega
  | ⟨2, _⟩ => show win1_1.index t (2 : Fin 3) * 1024 + 1 * (z 2).val = (i 2).val; omega

/-- The body's stored block over a variable block index. -/
theorem pay_block (x0 : Vec Ideal S1x512x1024 .bf16) (x1 : Vec Ideal S1x2048x1024 .bf16)
    (Q W : Fin 4 → Fin 2048 → Fin 1024 → EReal) (p : Fin 4) (r' : Fin 2048) (y : S1x512x1024.Idx)
    (hq : ∀ e : Fin 1024, x0 (ix3 (0 : Fin 1) (y 1) e) = Q p r' e)
    (hv : ∀ (k : Fin 2048) (e : Fin 1024), x1 (ix3 (0 : Fin 1) k e) = W p k e) :
    k1_pay1 (F := Ideal) x0 x1 y = Cert.Attn.attnK Q W p r' (y 2) := by
  obtain ⟨u, r, d, rfl⟩ : ∃ (u : Fin 1) (r : Fin 512) (d : Fin 1024), y = ix3 u r d := ⟨y 0, y 1, y 2, eq_ix3 y⟩
  exact Body1.pay_attn x0 x1 Q W p r' u r d hq hv

/-- WHAT POINT `t` WRITES BACK is block `t` of the attention function. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz3]
  simp only [View.ld_unit_zero (S := S1x512x1024) hz3, View.ld_unit_zero (S := S1x2048x1024) hz3]
  obtain ⟨-, -, -, -, -, -, e0, e1, e2⟩ := idx1 t
  funext y
  have hy0 : (y 0).val = 0 := by have h1 : (y 0).val < 1 := (y 0).isLt; omega
  have hp : (((cfg1.win 2).blk t).view.emb y (0 : Fin 3)).val = t.val / 4 := by
    show win1_2.index t (0 : Fin 3) * 1 + 1 * (y 0).val = t.val / 4; omega
  have hr : (((cfg1.win 2).blk t).view.emb y (1 : Fin 3)).val = t.val % 4 * 512 + (y 1).val := by
    show win1_2.index t (1 : Fin 3) * 512 + 1 * (y 1).val = t.val % 4 * 512 + (y 1).val; omega
  have hd : ((cfg1.win 2).blk t).view.emb y (2 : Fin 3) = y 2 := Fin.ext (by
    show win1_2.index t (2 : Fin 3) * 1024 + 1 * (y 2).val = (y 2).val; omega)
  refine (pay_block (iblk1 V c 0 t) (iblk1 V c 1 t) (Qc V c) (Vc V c)
    (((cfg1.win 2).blk t).view.emb y (0 : Fin 3)) (((cfg1.win 2).blk t).view.emb y (1 : Fin 3)) y ?_ ?_).trans ?_
  · intro e
    exact read_q V c t (ix3 (0 : Fin 1) (y 1) e)
      (ix3 (((cfg1.win 2).blk t).view.emb y (0 : Fin 3)) (((cfg1.win 2).blk t).view.emb y (1 : Fin 3)) e)
      (by show _ = t.val / 4 + 0; omega) (by show _ = t.val % 4 * 512 + (y 1).val; omega) rfl
  · intro k e
    exact read_v V c t (ix3 (0 : Fin 1) k e) (ix3 (((cfg1.win 2).blk t).view.emb y (0 : Fin 3)) k e)
      (by show _ = t.val / 4 + 0; omega) rfl rfl
  · show Cert.Attn.attnK (Qc V c) (Vc V c) _ _ (y 2) = Cert.Attn.attnK (Qc V c) (Vc V c) _ _ (((cfg1.win 2).blk t).view.emb y (2 : Fin 3))
    rw [hd]

/-- An index of the array is in point `t`'s block iff each coordinate is in the block's range on its axis. -/
theorem mem_blk (t : Fin cfg1.N) (i : S4x2048x1024.Idx) :
    i ∈ ((cfg1.win 2).blk t).view.set ↔ ∀ a : Fin 3, win1_2.index t a * S1x512x1024.size a ≤ (i a).val
      ∧ (i a).val < win1_2.index t a * S1x512x1024.size a + S1x512x1024.size a := by
  show i ∈ ((View.whole main_v7).slice (win1_2.rect t)).set ↔ _
  rw [View.set_slice_whole, Rect.mem_set_unit]
  exact Iff.rfl

/-- Every entry of the array lies in some point's block: batch `b`, row `r` in the block of point `4 b + r / 512`. -/
theorem cover (i : S4x2048x1024.Idx) :
    ∃ t : Fin cfg1.N, (cfg1.win 2).flush t = true ∧ i ∈ ((cfg1.win 2).blk t).view.set := by
  have hi0 : (i 0).val < 4 := (i 0).isLt
  have hi1 : (i 1).val < 2048 := (i 1).isLt
  have hi2 : (i 2).val < 1024 := (i 2).isLt
  have hN : cfg1.N = 16 := by decide
  let t : Fin cfg1.N := ⟨(i 0).val * 4 + (i 1).val / 512, by rw [hN]; omega⟩
  have ht : t.val = (i 0).val * 4 + (i 1).val / 512 := rfl
  obtain ⟨-, -, -, -, -, -, e0, e1, e2⟩ := idx1 t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 1024 ≤ (i 2).val ∧ (i 2).val < win1_2.index t (2 : Fin 3) * 1024 + 1024; omega

/-- THE ARRAY after the region: the attention function of the two projections as the region finds them. -/
theorem final (c : Dev nD) : (dat1 V c).arrAt 2 cfg1.N = G V c :=
  (dat1 V c).arrAt_eq_of_cover 2 (G V c) (fun t _ => flushed_eq V c t) (cover)

end Cert.KernelIdeal.Region1

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.KHost.lean ====
/-
  The host operations around the two regions, read at an index.

  Before the first region the program flattens the input `[4, 2048, 1024] → [8192, 1024]` (row `R = p · 2048 + r` of the flat
  array is the slab `(p, r)` of the input), stacks the two weight matrices along their rows into one `[2048, 1024]` matrix
  (rows `0 … 1023` the first matrix, rows `1024 … 2047` the second) and narrows its element format, which on the extended
  reals changes nothing, and stacks the two bias vectors the same way. Between the two regions it splits the leading axis
  of each of the first region's two results back, `[8192, 1024] → [4, 2048, 1024]`.
-/
import proofs.«118851_j39676907886799_2_alg».proof.Proof.Gen.KernelIdeal.Frame
import proofs.«118851_j39676907886799_2_alg».proof.Proof.Body0
import proofs.«118851_j39676907886799_2_alg».proof.Proof.LibFlatten
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KHost

open Cert.KernelIdeal Cert.KernelIdeal.Gen Cert.KernelIdeal.Body0 Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-! ## The flattened input -/

/-- The flattened input as a whole array: the shape cast of the input. -/
theorem v0_whole (c : Dev nD) :
    (V1 m ρ c main_v0 : S8192x1024.Idx → EReal)
      = shapeCast S8192x1024 (m ((c.tc : Thread nD τ).loc main_arg0) : S4x2048x1024.Idx → EReal) shapeCasts_S4x2048x1024_S8192x1024 := by
  show StableHlo.after hostOps0 (W0 m ρ c) (Proc.devRef .tc main_v0) = _
  after_results
  rfl

/-- Row `R = p · 2048 + r` of the flattened input is the slab `(p, r)` of the input. -/
theorem v0_at (c : Dev nD) (p : Fin 4) (r : Fin 2048) (d : Fin 1024) (R : Fin 8192) (hR : R.val = p.val * 2048 + r.val) : (V1 m ρ c main_v0 : S8192x1024.Idx → EReal) (ix2 R d) = (m ((c.tc : Thread nD τ).loc main_arg0) : S4x2048x1024.Idx → EReal) (ix3 p r d) := by
  rw [v0_whole]
  exact Cert.LibFlatten.shapeCast_abc_Rc_apply _ shapeCasts_S4x2048x1024_S8192x1024 p r d R hR

/-! ## The stacked weight matrices -/

/-- The stacked weights as a whole array: the two matrices one after the other along the rows (the narrowing of the
    element format is the identity on the extended reals). -/
theorem v2_whole (c : Dev nD) :
    (V1 m ρ c main_v2 : S2048x1024.Idx → EReal)
      = concatenate S2048x1024 0 [⟨S1024x1024, (m ((c.tc : Thread nD τ).loc main_arg1) : S1024x1024.Idx → EReal)⟩,
          ⟨S1024x1024, (m ((c.tc : Thread nD τ).loc main_arg3) : S1024x1024.Idx → EReal)⟩]
          concatenates_S1024x1024_S1024x1024_S2048x1024_d0 := by
  show StableHlo.after hostOps0 (W0 m ρ c) (Proc.devRef .tc main_v2) = _
  after_results
  rfl

/-- Row `e` of the first half of the stacked weights is row `e` of the first matrix. -/
theorem v2_lo (c : Dev nD) (e d : Fin 1024) : (V1 m ρ c main_v2 : S2048x1024.Idx → EReal) (ix2 (lo e) d) = (m ((c.tc : Thread nD τ).loc main_arg1) : S1024x1024.Idx → EReal) (ix2 e d) := by
  rw [v2_whole]
  exact concatenate_pair_apply_left (0 : Fin S2048x1024.rank) _ _ concatenates_S1024x1024_S1024x1024_S2048x1024_d0
    (ix2 (lo e) d) rfl (ix2 e d) (fun b => match b with | ⟨0, _⟩ => rfl | ⟨1, _⟩ => rfl)

/-- Row `1024 + e` of the stacked weights is row `e` of the second matrix. -/
theorem v2_hi (c : Dev nD) (e d : Fin 1024) : (V1 m ρ c main_v2 : S2048x1024.Idx → EReal) (ix2 (hi e) d) = (m ((c.tc : Thread nD τ).loc main_arg3) : S1024x1024.Idx → EReal) (ix2 e d) := by
  rw [v2_whole]
  exact concatenate_pair_apply_right (0 : Fin S2048x1024.rank) _ _ concatenates_S1024x1024_S1024x1024_S2048x1024_d0
    (ix2 (hi e) d) rfl rfl (ix2 e d)
    (fun b hb => match b, hb with | ⟨0, _⟩, hb => absurd rfl hb | ⟨1, _⟩, _ => rfl)
    (show e.val + 1024 = 1024 + e.val from Nat.add_comm _ _)

/-! ## The stacked bias vectors -/

/-- The stacked biases as a whole array: the two vectors one after the other. -/
theorem v3_whole (c : Dev nD) :
    (V1 m ρ c main_v3 : S2048.Idx → EReal)
      = concatenate S2048 0 [⟨S1024, (m ((c.tc : Thread nD τ).loc main_arg2) : S1024.Idx → EReal)⟩,
          ⟨S1024, (m ((c.tc : Thread nD τ).loc main_arg4) : S1024.Idx → EReal)⟩]
          concatenates_S1024_S1024_S2048_d0 := by
  show StableHlo.after hostOps0 (W0 m ρ c) (Proc.devRef .tc main_v3) = _
  after_results

/-- Entry `e` of the first half of the stacked biases is entry `e` of the first vector. -/
theorem v3_lo (c : Dev nD) (e : Fin 1024) : (V1 m ρ c main_v3 : S2048.Idx → EReal) (ix1 (lo e)) = (m ((c.tc : Thread nD τ).loc main_arg2) : S1024.Idx → EReal) (ix1 e) := by
  rw [v3_whole]
  exact concatenate_pair_apply_left (0 : Fin S2048.rank) _ _ concatenates_S1024_S1024_S2048_d0
    (ix1 (lo e)) rfl (ix1 e) (fun b => match b with | ⟨0, _⟩ => rfl)

/-- Entry `1024 + e` of the stacked biases is entry `e` of the second vector. -/
theorem v3_hi (c : Dev nD) (e : Fin 1024) : (V1 m ρ c main_v3 : S2048.Idx → EReal) (ix1 (hi e)) = (m ((c.tc : Thread nD τ).loc main_arg4) : S1024.Idx → EReal) (ix1 e) := by
  rw [v3_whole]
  exact concatenate_pair_apply_right (0 : Fin S2048.rank) _ _ concatenates_S1024_S1024_S2048_d0
    (ix1 (hi e)) rfl rfl (ix1 e)
    (fun b hb => match b, hb with | ⟨0, _⟩, hb => absurd rfl hb)
    (show e.val + 1024 = 1024 + e.val from Nat.add_comm _ _)

/-! ## The first region's results, split back -/

/-- The first result with its leading axis split, as a whole array. -/
theorem v5_whole (c : Dev nD) :
    (V3 m ρ c main_v5 : S4x2048x1024.Idx → EReal)
      = shapeCast S4x2048x1024 ((dat0 (V1 m ρ) c).arrAt 3 cfg0.N : S8192x1024.Idx → EReal) shapeCasts_S8192x1024_S4x2048x1024 := by
  show StableHlo.after hostOps1 (W2 m ρ c) (Proc.devRef .tc main_v5) = _
  after_results
  rw [(W2_arr m ρ c 3 : W2 m ρ c (Proc.devRef .tc main_v4_0) = _)]
  rfl

/-- The slab `(p, r)` of the first split result is row `R = p · 2048 + r` of the first region's first result. -/
theorem v5_at (c : Dev nD) (p : Fin 4) (r : Fin 2048) (e : Fin 1024) (R : Fin 8192) (hR : R.val = p.val * 2048 + r.val) : (V3 m ρ c main_v5 : S4x2048x1024.Idx → EReal) (ix3 p r e) = ((dat0 (V1 m ρ) c).arrAt 3 cfg0.N : S8192x1024.Idx → EReal) (ix2 R e) := by
  rw [v5_whole]
  exact Cert.LibFlatten.shapeCast_Rc_abc_apply _ shapeCasts_S8192x1024_S4x2048x1024 p r e R hR

/-- The second result with its leading axis split, as a whole array. -/
theorem v6_whole (c : Dev nD) :
    (V3 m ρ c main_v6 : S4x2048x1024.Idx → EReal)
      = shapeCast S4x2048x1024 ((dat0 (V1 m ρ) c).arrAt 4 cfg0.N : S8192x1024.Idx → EReal) shapeCasts_S8192x1024_S4x2048x1024 := by
  show StableHlo.after hostOps1 (W2 m ρ c) (Proc.devRef .tc main_v6) = _
  after_results
  rw [(W2_arr m ρ c 4 : W2 m ρ c (Proc.devRef .tc main_v4_1) = _)]
  rfl

/-- The slab `(p, r)` of the second split result is row `R = p · 2048 + r` of the first region's second result. -/
theorem v6_at (c : Dev nD) (p : Fin 4) (r : Fin 2048) (e : Fin 1024) (R : Fin 8192) (hR : R.val = p.val * 2048 + r.val) : (V3 m ρ c main_v6 : S4x2048x1024.Idx → EReal) (ix3 p r e) = ((dat0 (V1 m ρ) c).arrAt 4 cfg0.N : S8192x1024.Idx → EReal) (ix2 R e) := by
  rw [v6_whole]
  exact Cert.LibFlatten.shapeCast_Rc_abc_apply _ shapeCasts_S8192x1024_S4x2048x1024 p r e R hR

end Cert.KernelIdeal.KHost

end
-- ==== Proof.KValue.lean ====
/-
  The idealized kernel's result as one function of its five arguments.

  The second region ends with the attention (division done once) of the two projections as it finds them. Those are
  the reshapes of the first region's two output arrays; row `2048 p + r` of the first output array holds, at column `e`,
  the product of row `2048 p + r` of the flattened input with row `e` of the stacked weights plus entry `e` of the
  stacked bias, and the flattened input's row `2048 p + r` is the input's row `(p, r)`, the stacked weights' row `e` the
  first weight matrix's row `e`, the stacked bias's entry `e` the first bias's: the first projection. The second output
  array reads the stacked rows `1024 + e`: the second weight matrix and bias, the second projection.
-/
import proofs.«118851_j39676907886799_2_alg».proof.Proof.KRun
import proofs.«118851_j39676907886799_2_alg».proof.Proof.Region0
import proofs.«118851_j39676907886799_2_alg».proof.Proof.Region1
import proofs.«118851_j39676907886799_2_alg».proof.Proof.KHost
import proofs.«118851_j39676907886799_2_alg».proof.Proof.Spec

set_option maxRecDepth 16384

noncomputable section

namespace Cert.KernelIdeal.KValue

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg)

/-- The first projection as the second region finds it is the projection of the input by the first weights and bias. -/
theorem Qc_eq (c : Dev nD) :
    Region1.Qc (V3 m ρ) c = Cert.Attn.projOf (m ((c.tc : Thread nD τ).loc main_arg0))
      (m ((c.tc : Thread nD τ).loc main_arg1)) (m ((c.tc : Thread nD τ).loc main_arg2)) := by
  funext p r e
  have hRlt : p.val * 2048 + r.val < 8192 := by have := p.isLt; have := r.isLt; omega
  show (V3 m ρ c main_v5 : S4x2048x1024.Idx → EReal) (ix3 p r e) = _
  rw [KHost.v5_at m ρ c p r e ⟨p.val * 2048 + r.val, hRlt⟩ rfl, Region0.final3 (V1 m ρ) c]
  show Region0.gq (V1 m ρ) c ⟨p.val * 2048 + r.val, hRlt⟩ (Body0.lo e) = _
  unfold Region0.gq Cert.Attn.projOf Cert.Attn.proj Cert.Attn.unc3 Cert.Attn.unc2 Cert.Attn.unc1
  exact congrArg₂ (fun a b : EReal => a + b)
    (Finset.sum_congr rfl fun d _ => congrArg₂ (fun a b : EReal => a * b)
      (KHost.v0_at m ρ c p r d ⟨p.val * 2048 + r.val, hRlt⟩ rfl) (KHost.v2_lo m ρ c e d))
    (KHost.v3_lo m ρ c e)

/-- The second projection as the second region finds it is the projection by the second weights and bias. -/
theorem Vc_eq (c : Dev nD) :
    Region1.Vc (V3 m ρ) c = Cert.Attn.projOf (m ((c.tc : Thread nD τ).loc main_arg0))
      (m ((c.tc : Thread nD τ).loc main_arg3)) (m ((c.tc : Thread nD τ).loc main_arg4)) := by
  funext p r e
  have hRlt : p.val * 2048 + r.val < 8192 := by have := p.isLt; have := r.isLt; omega
  show (V3 m ρ c main_v6 : S4x2048x1024.Idx → EReal) (ix3 p r e) = _
  rw [KHost.v6_at m ρ c p r e ⟨p.val * 2048 + r.val, hRlt⟩ rfl, Region0.final4 (V1 m ρ) c]
  show Region0.gq (V1 m ρ) c ⟨p.val * 2048 + r.val, hRlt⟩ (Body0.hi e) = _
  unfold Region0.gq Cert.Attn.projOf Cert.Attn.proj Cert.Attn.unc3 Cert.Attn.unc2 Cert.Attn.unc1
  exact congrArg₂ (fun a b : EReal => a + b)
    (Finset.sum_congr rfl fun d _ => congrArg₂ (fun a b : EReal => a * b)
      (KHost.v0_at m ρ c p r d ⟨p.val * 2048 + r.val, hRlt⟩ rfl) (KHost.v2_hi m ρ c e d))
    (KHost.v3_hi m ρ c e)

/-- The result array after the run is the specification's output (division done once) of the arguments. -/
theorem value (c : Dev nD) :
    (dat1 (V3 m ρ) c).arrAt 2 cfg1.N = Cert.Attn.outK (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  rw [Region1.final (V3 m ρ) c]
  unfold Region1.G Cert.Attn.outK
  rw [Qc_eq, Vc_eq]

/-- Every weakly fair execution of the idealized kernel terminates with the result at the specification's output of
    the arguments and the arguments unchanged. -/
theorem run : θ_run defs (onTc (τ := τ) (main (F := Ideal))) ⟨m, fun _ => 0, ρ⟩ (fun r => ∀ c : Dev nD,
      r.2.mem ((c.tc : Thread nD τ).loc main_v7) = Cert.Attn.outK (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value m ρ c), (h c).2⟩) (KRun.run_named m ρ)

end Cert.KernelIdeal.KValue

end
-- ==== Proof.lean ====
/-
  Softmax attention over two linear projections: a fused two-stage kernel against its plain reference.

  Both programs form the projections `Q = x · W1ᵀ + b1` and `V = x · W2ᵀ + b2`, the scores `Q · Vᵀ` per batch, the
  weights `exp (score − row maximum)` and the weighted sum of the rows of `V`. The kernel stacks the two weight
  matrices and biases, computes both projections in one product and splits the columns; its second stage divides the
  weighted sum by the weights' row sum once. The reference normalizes every weight first and takes one more maximum
  with −∞, which changes nothing. On the extended reals the two orders of the division agree because, the inputs being
  finite, every score, maximum and weight is a real number and the row sum is a positive real: dividing a finite sum of
  reals by it distributes over the sum. A change of float format is the identity at this instance.

  The three frames are the programs' runs with the results dropped; the idealization rewrote nothing, so its conjunct
  is trivial; the algebraic conjunct puts the two runs side by side at the kernel's form of the output.
-/
import proofs.«118851_j39676907886799_2_alg».proof.Defs
import proofs.«118851_j39676907886799_2_alg».proof.Proof.Gen.Kernel
import proofs.«118851_j39676907886799_2_alg».proof.Proof.Gen.Kernel.Skeleton
import proofs.«118851_j39676907886799_2_alg».proof.Proof.Gen.Kernel.Launch
import proofs.«118851_j39676907886799_2_alg».proof.Proof.Gen.Kernel.Points
import proofs.«118851_j39676907886799_2_alg».proof.Proof.Gen.Kernel.Frame
import proofs.«118851_j39676907886799_2_alg».proof.Proof.Gen.KernelIdeal
import proofs.«118851_j39676907886799_2_alg».proof.Proof.Gen.KernelIdeal.Skeleton
import proofs.«118851_j39676907886799_2_alg».proof.Proof.Gen.KernelIdeal.Launch
import proofs.«118851_j39676907886799_2_alg».proof.Proof.Gen.KernelIdeal.Points
import proofs.«118851_j39676907886799_2_alg».proof.Proof.Gen.KernelIdeal.Frame
import proofs.«118851_j39676907886799_2_alg».proof.Proof.Gen.ReferenceIdeal
import proofs.«118851_j39676907886799_2_alg».proof.Proof.Gen.ReferenceIdeal.Run
import proofs.«118851_j39676907886799_2_alg».proof.Proof.Gen.ReferenceIdeal.Read
import proofs.«118851_j39676907886799_2_alg».proof.Proof.Gen.Pre_finite_inputs
import proofs.«118851_j39676907886799_2_alg».proof.Proof.Spec
import proofs.«118851_j39676907886799_2_alg».proof.Proof.AttnLaw
import proofs.«118851_j39676907886799_2_alg».proof.Proof.Finite
import proofs.«118851_j39676907886799_2_alg».proof.Proof.RefValue
import proofs.«118851_j39676907886799_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the finite arguments both programs end at the same array: the kernel at the attention
    with the division done once, the reference at the attention with every weight divided, equal on finite inputs. -/
theorem algebraic : Cert.algebraic_KernelIdeal_ReferenceIdeal := by
  intro m ρ m' ρ' hpre hagree
  refine ⟨fun c => Cert.Attn.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Finite.of_pre _ _ _ _ _ (hpre c)
  rw [Cert.ReferenceIdeal.Read.val_main_v20_eq, Cert.RefBridge.ref_value, (hagree c).1, (hagree c).2.1,
    (hagree c).2.2.1, (hagree c).2.2.2.1, (hagree c).2.2.2.2]
  exact (Cert.Attn.outK_eq_outR _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
